-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x4096 : Shape := ⟨2, ![4096, 4096]⟩
abbrev S4096x1000 : Shape := ⟨2, ![4096, 1000]⟩
abbrev S_ : Shape := ⟨0, ![]⟩

class Facts : Prop where
  bcast_S_S4096x4096 : S_.BroadcastsInDim S4096x4096 (![] : Fin 0 → Fin S4096x4096.rank)
  reducesTo_S4096x4096_S_d0_1 : S4096x4096.ReducesTo [0, 1] S_
  h_S_ : 0 < S_.numel
  bcast_S_S4096x1000 : S_.BroadcastsInDim S4096x1000 (![] : Fin 0 → Fin S4096x1000.rank)
  reducesTo_S4096x1000_S_d0_1 : S4096x1000.ReducesTo [0, 1] S_

variable [Facts]

def fn_part1 {F : FTy → Type} [FloatOps F] (main_v13 : IVec S_ 1) (main_v16 : IVec S4096x4096 1) : IVec S_ 1 :=
  let main_c_5 : IVec S_ 1 := constantI S_ 1 1#1
  let main_v17 : IVec S_ 1 := (fun x v => Host.reduce IntOp.andi x v reducesTo_S4096x4096_S_d0_1 h_S_) main_v16 main_c_5
  let main_v18 : IVec S_ 1 := andi main_v13 main_v17
  main_v18

def fn {F : FTy → Type} [FloatOps F] (main_arg0 : FVec F S4096x4096 .f32) (main_arg1 : FVec F S4096x1000 .f32) (main_arg2 : FVec F S4096x4096 .f32) (main_arg3 : FVec F S4096x4096 .f32) : IVec S_ 1 :=
  let main_v0 : FVec F S4096x4096 .f32 := Host.absf main_arg0
  let main_cst : FVec F S_ .f32 := constant S_ .f32 0x7F800000#32
  let main_v1 : FVec F S4096x4096 .f32 := broadcastInDim S4096x4096 ![] bcast_S_S4096x4096 main_cst
  let main_v2 : IVec S4096x4096 1 := cmpf .olt main_v0 main_v1
  let main_c : IVec S_ 1 := constantI S_ 1 1#1
  let main_v3 : IVec S_ 1 := (fun x v => Host.reduce IntOp.andi x v reducesTo_S4096x4096_S_d0_1 h_S_) main_v2 main_c
  let main_v4 : FVec F S4096x1000 .f32 := Host.absf main_arg1
  let main_cst_0 : FVec F S_ .f32 := constant S_ .f32 0x7F800000#32
  let main_v5 : FVec F S4096x1000 .f32 := broadcastInDim S4096x1000 ![] bcast_S_S4096x1000 main_cst_0
  let main_v6 : IVec S4096x1000 1 := cmpf .olt main_v4 main_v5
  let main_c_1 : IVec S_ 1 := constantI S_ 1 1#1
  let main_v7 : IVec S_ 1 := (fun x v => Host.reduce IntOp.andi x v reducesTo_S4096x1000_S_d0_1 h_S_) main_v6 main_c_1
  let main_v8 : IVec S_ 1 := andi main_v3 main_v7
  let main_v9 : FVec F S4096x4096 .f32 := Host.absf main_arg2
  let main_cst_2 : FVec F S_ .f32 := constant S_ .f32 0x7F800000#32
  let main_v10 : FVec F S4096x4096 .f32 := broadcastInDim S4096x4096 ![] bcast_S_S4096x4096 main_cst_2
  let main_v11 : IVec S4096x4096 1 := cmpf .olt main_v9 main_v10
  let main_c_3 : IVec S_ 1 := constantI S_ 1 1#1
  let main_v12 : IVec S_ 1 := (fun x v => Host.reduce IntOp.andi x v reducesTo_S4096x4096_S_d0_1 h_S_) main_v11 main_c_3
  let main_v13 : IVec S_ 1 := andi main_v8 main_v12
  let main_v14 : FVec F S4096x4096 .f32 := Host.absf main_arg3
  let main_cst_4 : FVec F S_ .f32 := constant S_ .f32 0x7F800000#32
  let main_v15 : FVec F S4096x4096 .f32 := broadcastInDim S4096x4096 ![] bcast_S_S4096x4096 main_cst_4
  let main_v16 : IVec S4096x4096 1 := cmpf .olt main_v14 main_v15
  fn_part1 (F := F) main_v13 main_v16
-- ==== Kernel.lean ====
abbrev S4096x4096 : Shape := ⟨2, ![4096, 4096]⟩
abbrev S4096x1000 : Shape := ⟨2, ![4096, 1000]⟩
abbrev S512x1000 : Shape := ⟨2, ![512, 1000]⟩
abbrev S512x1024 : Shape := ⟨2, ![512, 1024]⟩
abbrev S512x128 : Shape := ⟨2, ![512, 128]⟩
abbrev S512 : Shape := ⟨1, ![512]⟩
abbrev S512x1 : Shape := ⟨2, ![512, 1]⟩

abbrev nBuf : Space → Nat
  | .hbm => 5
  | .vmem => 11
  | .smem => 0
  | _ => 0

abbrev bufTy : (tb : Table) → Fin (tcTables nBuf tb) → BufTy
  | .hbm, ⟨0, _⟩ => ⟨S4096x4096, .f32⟩
  | .hbm, ⟨1, _⟩ => ⟨S4096x1000, .f32⟩
  | .hbm, ⟨2, _⟩ => ⟨S4096x4096, .f32⟩
  | .hbm, ⟨3, _⟩ => ⟨S4096x4096, .f32⟩
  | .hbm, ⟨4, _⟩ => ⟨S4096x4096, .f32⟩
  | .local _ .vmem, ⟨0, _⟩ => ⟨S512x1000, .f32⟩
  | .local _ .vmem, ⟨1, _⟩ => ⟨S512x1000, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x128, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  inb_S512x1000_S512x1000_0_0 : ∀ a, (![0, 0] : Fin 2 → Nat) a + S512x1000.size a ≤ S512x1000.size a
  h_S512x1000 : 0 < S512x1000.numel
  reduces_S512x1000_S512 : S512x1000.Reduces [1] S512
  shapeCasts_S512_S512x1 : S512.ShapeCasts S512x1
  broadcasts_S512x1_S512x1000 : S512x1.Broadcasts S512x1000
  shapeCasts_S512x1_S512x1 : S512x1.ShapeCasts S512x1
  broadcasts_S512x1_S512x128 : S512x1.Broadcasts S512x128
  inb_S512x128_S512x128_0_0 : ∀ a, (![0, 0] : Fin 2 → Nat) a + S512x128.size a ≤ S512x128.size a
  h_S512x128 : 0 < S512x128.numel
  shapeCasts_S512x128_S512x128 : S512x128.ShapeCasts S512x128
  inb_S512x1024_S512x1024_0_0 : ∀ a, (![0, 0] : Fin 2 → Nat) a + S512x1024.size a ≤ S512x1024.size a
  h_S512x1024 : 0 < S512x1024.numel
  inb_S512x128_S512x1_0_0 : ∀ a, (![0, 0] : Fin 2 → Nat) a + S512x1.size a ≤ S512x128.size a
  h_S512x1 : 0 < S512x1.numel
  broadcasts_S512x1_S512x1024 : S512x1.Broadcasts S512x1024
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1000.size a ≤ S4096x1000.size a
  hwx0_0 : ∀ i : grid0.Coords, EltTy.bits .f32 = 32 ∨ (Rect.block (s := S4096x1000) S512x1000.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1024.size a ≤ S4096x4096.size a
  hwx0_1 : ∀ i : grid0.Coords, EltTy.bits .f32 = 32 ∨ (Rect.block (s := S4096x4096) S512x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1024.size a ≤ S4096x4096.size a
  hwx0_2 : ∀ i : grid0.Coords, EltTy.bits .f32 = 32 ∨ (Rect.block (s := S4096x4096) S512x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x1024.size a ≤ S4096x4096.size a
  hwx0_3 : ∀ i : grid0.Coords, EltTy.bits .f32 = 32 ∨ (Rect.block (s := S4096x4096) S512x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x1024.size a ≤ S4096x4096.size a
  hwx0_4 : ∀ i : grid0.Coords, EltTy.bits .f32 = 32 ∨ (Rect.block (s := S4096x4096) S512x1024.size (cc0_transform_4 i) (hinb0_4 i)).WholeWords (EltTy.packing .f32)

variable [Facts₀]

abbrev win0_0 : Pipeline.Window sig grid0 :=
  Pipeline.Window.ofSpec (Memref.whole main_arg1) S512x1000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S512x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S512x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S512x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0) S512x1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S4096x4096 : Shape := ⟨2, ![4096, 4096]⟩
abbrev S4096x1000 : Shape := ⟨2, ![4096, 1000]⟩
abbrev S_ : Shape := ⟨0, ![]⟩
abbrev S4096 : Shape := ⟨1, ![4096]⟩
abbrev S4096x1 : Shape := ⟨2, ![4096, 1]⟩

abbrev nBuf : Space → Nat
  | .hbm => 45
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x1000, .f32⟩
  | .hbm, ⟨2, _⟩ => ⟨S4096x4096, .f32⟩
  | .hbm, ⟨3, _⟩ => ⟨S4096x4096, .f32⟩
  | .hbm, ⟨4, _⟩ => ⟨S_, .f32⟩
  | .hbm, ⟨5, _⟩ => ⟨S4096x1000, .f32⟩
  | .hbm, ⟨6, _⟩ => ⟨S4096x1000, .f32⟩
  | .hbm, ⟨7, _⟩ => ⟨S_, .f32⟩
  | .hbm, ⟨8, _⟩ => ⟨S4096, .f32⟩
  | .hbm, ⟨9, _⟩ => ⟨S_, .f32⟩
  | .hbm, ⟨10, _⟩ => ⟨S4096, .f32⟩
  | .hbm, ⟨11, _⟩ => ⟨S4096, .f32⟩
  | .hbm, ⟨12, _⟩ => ⟨S4096x1, .f32⟩
  | .hbm, ⟨13, _⟩ => ⟨S4096x1000, .f32⟩
  | .hbm, ⟨14, _⟩ => ⟨S4096x1000, .f32⟩
  | .hbm, ⟨15, _⟩ => ⟨S4096x1000, .f32⟩
  | .hbm, ⟨16, _⟩ => ⟨S_, .f32⟩
  | .hbm, ⟨17, _⟩ => ⟨S4096, .f32⟩
  | .hbm, ⟨18, _⟩ => ⟨S4096x1, .f32⟩
  | .hbm, ⟨19, _⟩ => ⟨S4096x1000, .f32⟩
  | .hbm, ⟨20, _⟩ => ⟨S4096x1000, .f32⟩
  | .hbm, ⟨21, _⟩ => ⟨S_, .f32⟩
  | .hbm, ⟨22, _⟩ => ⟨S4096, .f32⟩
  | .hbm, ⟨23, _⟩ => ⟨S_, .f32⟩
  | .hbm, ⟨24, _⟩ => ⟨S4096, .f32⟩
  | .hbm, ⟨25, _⟩ => ⟨S4096, .f32⟩
  | .hbm, ⟨26, _⟩ => ⟨S_, .f32⟩
  | .hbm, ⟨27, _⟩ => ⟨S4096, .f32⟩
  | .hbm, ⟨28, _⟩ => ⟨S4096, .f32⟩
  | .hbm, ⟨29, _⟩ => ⟨S_, .f32⟩
  | .hbm, ⟨30, _⟩ => ⟨S4096, .f32⟩
  | .hbm, ⟨31, _⟩ => ⟨S4096, .f32⟩
  | .hbm, ⟨32, _⟩ => ⟨S_, .f32⟩
  | .hbm, ⟨33, _⟩ => ⟨S4096, .f32⟩
  | .hbm, ⟨34, _⟩ => ⟨S4096, .f32⟩
  | .hbm, ⟨35, _⟩ => ⟨S4096x1, .f32⟩
  | .hbm, ⟨36, _⟩ => ⟨S4096x4096, .f32⟩
  | .hbm, ⟨37, _⟩ => ⟨S4096x4096, .f32⟩
  | .hbm, ⟨38, _⟩ => ⟨S_, .f32⟩
  | .hbm, ⟨39, _⟩ => ⟨S4096x4096, .f32⟩
  | .hbm, ⟨40, _⟩ => ⟨S4096x4096, .i1⟩
  | .hbm, ⟨41, _⟩ => ⟨S_, .f32⟩
  | .hbm, ⟨42, _⟩ => ⟨S4096x4096, .f32⟩
  | .hbm, ⟨43, _⟩ => ⟨S4096x4096, .f32⟩
  | .hbm, ⟨44, _⟩ => ⟨S4096x4096, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_3 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_8 : Ref sig .tc := ⟨.hbm, 38, rfl⟩
abbrev main_v25 : Ref sig .tc := ⟨.hbm, 39, rfl⟩
abbrev main_v26 : Ref sig .tc := ⟨.hbm, 40, rfl⟩
abbrev main_cst_9 : Ref sig .tc := ⟨.hbm, 41, rfl⟩
abbrev main_call0_v0 : Ref sig .tc := ⟨.hbm, 42, rfl⟩
abbrev main_v27 : Ref sig .tc := ⟨.hbm, 43, rfl⟩
abbrev main_v28 : Ref sig .tc := ⟨.hbm, 44, rfl⟩

abbrev nD : Nat := 1
abbrev τ : Topo := Topo.v7x

variable {F : FTy → Type} [FloatOps F]

class Facts₀ : Prop where
  bcast_S_S4096x1000 : S_.BroadcastsInDim S4096x1000 (![] : Fin 0 → Fin S4096x1000.rank)
  reducesTo_S4096x1000_S4096_d1 : S4096x1000.ReducesTo [1] S4096
  h_S_ : 0 < S_.numel
  bcast_S_S4096 : S_.BroadcastsInDim S4096 (![] : Fin 0 → Fin S4096.rank)
  bcast_S4096_S4096x1_0 : S4096.BroadcastsInDim S4096x1 (![0] : Fin 1 → Fin S4096x1.rank)
  bcast_S4096x1_S4096x1000_0_1 : S4096x1.BroadcastsInDim S4096x1000 (![0, 1] : Fin 2 → Fin S4096x1000.rank)
  bcast_S4096x1_S4096x4096_0_1 : S4096x1.BroadcastsInDim S4096x4096 (![0, 1] : Fin 2 → Fin S4096x4096.rank)
  bcast_S_S4096x4096 : S_.BroadcastsInDim S4096x4096 (![] : Fin 0 → Fin S4096x4096.rank)

variable [Facts₀]

class Facts : Prop extends Facts₀ where

variable [Facts]
-- ==== Proof.Spec.lean ====
/-
  The specification: what both programs compute, as one function of the four argument arrays.

  For a row of logits `row : Fin 1000 → EReal` put
    `rowMax row = max_k (row k · 1)`                 (the fold of `max` from −∞),
    `rowSum row = Σ_k exp (row k · 1 − rowMax row)`,
    `conf row   = 1 / rowSum row`                    (the largest softmax probability of the row),
    `scale row  = min (0.1 · (1 + 1 · conf row)) 1`.
  The result at `(r, q)` is `x(r,q) + (if ru(r,q) < 0.3 then ns(r,q) · scale (mo(r,·)) else 0)`.
  The float words stay unevaluated: both programs spell the same ones.
-/
import Idealize.ShloMosaic.PureOps.Ideal
import Idealize.ShloMosaic.PureOps.Ideal.Laws
import Idealize.ShloMosaic.Lib.ValueIdx

noncomputable section

namespace Cert.NoiseMask

open Idealize.ShloMosaic Idealize.ShloMosaic.ValueIdx

/-- The largest of a row's logits, each times one: the fold of `max` from the word of −∞. -/
def rowMax (row : Fin 1000 → EReal) : EReal :=
  (Finset.univ : Finset (Fin 1000)).fold max (Ideal.ofBits .f32 0xFF800000#32) (fun k => row k * Ideal.ofBits .f32 0x3F800000#32)

/-- The sum of the exponentials of the row's logits, shifted by the largest. -/
def rowSum (row : Fin 1000 → EReal) : EReal :=
  ∑ k : Fin 1000, Ideal.exp (row k * Ideal.ofBits .f32 0x3F800000#32 - rowMax row)

/-- The largest softmax probability of the row: one over that sum. -/
def conf (row : Fin 1000 → EReal) : EReal :=
  Ideal.div (Ideal.ofBits .f32 0x3F800000#32) (rowSum row)

/-- The row's noise scale: a tenth of one plus the confidence, capped at one. -/
def scale (row : Fin 1000 → EReal) : EReal :=
  min (Ideal.ofBits .f32 0x3DCCCCCD#32 * (Ideal.ofBits .f32 0x3F800000#32 + Ideal.ofBits .f32 0x3F800000#32 * conf row))
    (Ideal.ofBits .f32 0x3F800000#32)

/-- The result at row `r`, column `q`. -/
def outAt (x : (⟨2, ![4096, 4096]⟩ : Shape).Idx → EReal) (mo : (⟨2, ![4096, 1000]⟩ : Shape).Idx → EReal)
    (ru ns : (⟨2, ![4096, 4096]⟩ : Shape).Idx → EReal) (r q : Fin 4096) : EReal :=
  x (ix2 r q) + Scalar.select (Ideal.cmp .olt (ru (ix2 r q)) (Ideal.ofBits .f32 0x3E99999A#32))
    (ns (ix2 r q) * scale (fun k => mo (ix2 r k))) (Ideal.ofBits .f32 0x00000000#32)

/-- The whole result array. -/
def G (x : (⟨2, ![4096, 4096]⟩ : Shape).Idx → EReal) (mo : (⟨2, ![4096, 1000]⟩ : Shape).Idx → EReal)
    (ru ns : (⟨2, ![4096, 4096]⟩ : Shape).Idx → EReal) : (⟨2, ![4096, 4096]⟩ : Shape).Idx → EReal :=
  fun i => outAt x mo ru ns (i 0) (i 1)

theorem G_ix2 (x : (⟨2, ![4096, 4096]⟩ : Shape).Idx → EReal) (mo : (⟨2, ![4096, 1000]⟩ : Shape).Idx → EReal)
    (ru ns : (⟨2, ![4096, 4096]⟩ : Shape).Idx → EReal) (r q : Fin 4096) :
    G x mo ru ns (ix2 r q) = outAt x mo ru ns r q := rfl

end Cert.NoiseMask

end
-- ==== Proof.Pieces.lean ====
/-
  What one run of the kernel body leaves, as values.

  At a grid point `(i, j)` the body holds the row block `i` of the logits (`x0`, 512 × 1000) and the blocks `(i, j)` of
  the three 4096 × 4096 inputs (`x1`, `x2`, `x3`, each 512 × 1024).  When `j = 0` it first fills the 512 × 128 scratch with the
  per-row noise scale (every one of its 128 columns holds it); at every point it then reads column 0 of the scratch and
  stores the output block: the first input plus the masked, scaled third one.  Stated for any float instance.
-/
import proofs.«127631_j20770461843629_2_alg».proof.Proof.Gen.KernelIdeal.Frame
import proofs.«127631_j20770461843629_2_alg».proof.Proof.Gen.KernelIdeal.Value
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Pieces
open Cert.KernelIdeal Cert.KernelIdeal.Gen
variable {F : FTy → Type} [FloatOps F]

theorem hz : (![0, 0] : Fin 2 → Nat) = fun _ => 0 := funext fun a => by fin_cases a <;> rfl

/-- Column 0 of a 512 × 128 array, as a 512 × 1 array: what the body's load of the scratch's first column reads. -/
abbrev col0 (X : Vec F S512x128 .f32) : Vec F S512x1 .f32 :=
  View.ld X (Rect.unit (s := S512x128) ![0, 0] S512x1.size inb_S512x128_S512x1_0_0)

/-- At a point with `j = 0` the scratch ends holding the scale array computed from the logits block. -/
theorem sout_A (c : Dev nD) (i : grid0.Coords) (arg2 : Memref sig .tc .vmem S512x1000 .f32) (harg2 : arg2.IsWhole) (arg3 : Memref sig .tc .vmem S512x1024 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S512x1024 .f32) (harg6 : arg6.IsWhole) (arg7 : Memref sig .tc .vmem S512x128 .f32) (harg7 : arg7.IsWhole) (hc0 : cond0_0 i) (x0 : Vec F S512x1000 .f32) (x1 : Vec F S512x1024 .f32) (x2 : Vec F S512x1024 .f32) (x3 : Vec F S512x1024 .f32) :
    sout0_A_0 c i arg2 harg2 arg3 harg3 arg4 harg4 arg5 harg5 arg6 harg6 arg7 harg7 hc0 x0 x1 x2 x3 = k0_pay1 x0 := by
  unfold sout0_A_0
  rw [View.read_writes_eq_canon _ _ _ (scover0_A_0 c i arg2 harg2 arg3 harg3 arg4 harg4 arg5 harg5 arg6 harg6 arg7 harg7 hc0 x0 x1 x2 x3)]
  unfold kernelRun0_A
  dsimp only
  sl_unfold_words
  rw [View.canon_unit_zero hz]
  simp only [View.readAt_eq_ld, harg2.read_unread, View.ld_unit_zero (S := S512x1000) hz]

/-- At a point with `j = 0` the output block is the combine of the three input blocks with column 0 of the scale
    array just stored. -/
theorem out_A (c : Dev nD) (i : grid0.Coords) (arg2 : Memref sig .tc .vmem S512x1000 .f32) (harg2 : arg2.IsWhole) (arg3 : Memref sig .tc .vmem S512x1024 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S512x1024 .f32) (harg6 : arg6.IsWhole) (arg7 : Memref sig .tc .vmem S512x128 .f32) (harg7 : arg7.IsWhole) (hc0 : cond0_0 i) (x0 : Vec F S512x1000 .f32) (x1 : Vec F S512x1024 .f32) (x2 : Vec F S512x1024 .f32) (x3 : Vec F S512x1024 .f32) :
    out0_A_4 c i arg2 harg2 arg3 harg3 arg4 harg4 arg5 harg5 arg6 harg6 arg7 harg7 hc0 x0 x1 x2 x3 = k0_pay2 x1 x2 x3 (col0 (k0_pay1 x0)) := by
  unfold out0_A_4
  rw [View.read_writes_eq_canon _ _ _ (cover0_A_4 c i arg2 harg2 arg3 harg3 arg4 harg4 arg5 harg5 arg6 harg6 arg7 harg7 hc0 x0 x1 x2 x3)]
  unfold kernelRun0_A
  dsimp only
  sl_unfold_words
  rw [View.canon_unit_zero hz]
  rw [View.readCov_eq_canon_ld _ _ _ (fun y => ⟨_, List.mem_singleton_self _, View.mem_set_unit_zero hz inb_S512x128_S512x128_0_0 y⟩),
    View.canon_unit_zero hz]
  simp only [View.readAt_eq_ld, harg2.read_unread, harg3.read_unread, harg4.read_unread, harg5.read_unread,
    View.ld_unit_zero (S := S512x1000) hz, View.ld_unit_zero (S := S512x1024) hz]

/-- At a point with `j ≠ 0` the output block is the combine of the three input blocks with column 0 of what the
    scratch held on entry. -/
theorem out_B (c : Dev nD) (i : grid0.Coords) (arg2 : Memref sig .tc .vmem S512x1000 .f32) (harg2 : arg2.IsWhole) (arg3 : Memref sig .tc .vmem S512x1024 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S512x1024 .f32) (harg6 : arg6.IsWhole) (arg7 : Memref sig .tc .vmem S512x128 .f32) (harg7 : arg7.IsWhole) (hc0 : ¬cond0_0 i) (x0 : Vec F S512x1000 .f32) (x1 : Vec F S512x1024 .f32) (x2 : Vec F S512x1024 .f32) (x3 : Vec F S512x1024 .f32) (xs0 : Vec F S512x128 .f32) :
    out0_B_4 c i arg2 harg2 arg3 harg3 arg4 harg4 arg5 harg5 arg6 harg6 arg7 harg7 hc0 x0 x1 x2 x3 xs0 = k0_pay2 x1 x2 x3 (col0 xs0) := by
  unfold out0_B_4
  rw [View.read_writes_eq_canon _ _ _ (cover0_B_4 c i arg2 harg2 arg3 harg3 arg4 harg4 arg5 harg5 arg6 harg6 arg7 harg7 hc0 x0 x1 x2 x3 xs0)]
  unfold kernelRun0_B
  dsimp only
  rw [View.canon_unit_zero hz]
  simp only [View.readAt_eq_ld, harg3.read_unread, harg4.read_unread, harg5.read_unread, harg7.read_unread, View.ld_unit_zero (S := S512x1024) hz]

end Cert.KernelIdeal.Pieces
end
-- ==== Proof.LibRowOps.lean ====
/-
  Dense two-axis arrays on the extended reals, read at coordinates.

  * keepdims layout: a length-`a` vector as an `[a, 1]` column, and an `[a, 1]` column repeated across `b` columns;
  * a row sum and a row maximum of an `[a, b]` array, kept as a length-`a` vector: the `Fin b`-indexed sum of the row,
    and the fold of `max` over the row from the accumulator's value (the host's reduce over the last axis of a
    rank-3 array likewise);
  * the two products of two-axis arrays a dense layer meets, into a zero accumulator: both operands contracted on
    their SECOND axis, `out (i, j) = Σ k, A (i, k) · B (j, k)`, and both on their FIRST, `out (i, j) = Σ k, A (k, i) · B (k, j)`.
    The dimension numbers enter through four coordinate facts of their index maps, so one statement serves every
    extent;
  * `max b (fold max b f) = fold max b f`: a maximum taken once more with its own starting value.
-/
import Idealize.ShloMosaic.PureOps.Ideal.Laws
import Idealize.ShloMosaic.PureOps.Reduce
import Idealize.ShloMosaic.Lib.ValueIdx
import Idealize.ShloMosaic.Lib.ValueLayout
import Idealize.ShloMosaic.Lib.Pipeline.Value

noncomputable section

open scoped BigOperators

namespace Cert.RowOps

open Idealize.ShloMosaic Idealize.ShloMosaic.ValueIdx

/-! ## Keepdims layout -/

section Layout
variable {α : Type}

/-- A length-`a` vector cast to a column `[a, 1]` reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` repeated across `b` columns reads, at `(i, j)`, the column at `i`. -/
theorem broadcastTo_a1_ab_apply {a b : ℕ} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

end Layout

/-! ## A row's sum and a row's maximum -/

/-- The reduced index `i` with the coordinate `k` of the second axis put back is `(i, k)`. -/
theorem lift_row {a b : ℕ} (h : (⟨2, ![a, b]⟩ : Shape).Reduces [1] (⟨1, ![a]⟩ : Shape)) (i : Fin a)
    (k : Fin ((⟨2, ![a, b]⟩ : Shape).size 1)) : h.lift (ix1 i) k = ix2 i (⟨k.val, k.isLt⟩ : Fin b) := by
  funext c; apply Fin.ext
  fin_cases c <;> rfl

/-- A sum over the second axis of an `[a, b]` array reads, at `i`, the sum of row `i`. -/
theorem rowSum_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (i : Fin a) :
    multiReduction .add [1] ⟨1, ![a]⟩ src acc h hφ hacc (ix1 i) = ∑ k : Fin b, src (ix2 i k) :=
  (Ideal.multiReduction_add_single src acc h hφ hacc (ix1 i)).trans
    (Finset.sum_congr rfl fun k _ => congrArg src (lift_row h i k))

/-- A maximum over the second axis of an `[a, b]` array reads, at `i`, the fold of `max` over row `i` from the
    accumulator's value. -/
theorem rowMax_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ) (i : Fin a) :
    multiReduction .maximumf [1] ⟨1, ![a]⟩ src acc h hφ hacc (ix1 i)
      = (Finset.univ : Finset (Fin b)).fold max (Ideal.ofBits φ acc) (fun k => src (ix2 i k)) :=
  (Ideal.multiReduction_maximumf_single src acc h hφ hacc (ix1 i)).trans
    (congrArg (fun f => Finset.fold max (Ideal.ofBits φ acc) f (Finset.univ : Finset (Fin b)))
      (funext fun k => congrArg src (lift_row h i k)))

/-- The reduced index `(a, b)` of a three-axis array with the coordinate `k` of the last axis put back is `(a, b, k)`. -/
theorem lift_last3 {n0 n1 n2 : ℕ} (h : (⟨3, ![n0, n1, n2]⟩ : Shape).Reduces [2] (⟨2, ![n0, n1]⟩ : Shape)) (a : Fin n0) (b : Fin n1)
    (k : Fin ((⟨3, ![n0, n1, n2]⟩ : Shape).size 2)) : h.lift (ix2 a b) k = ix3 a b (⟨k.val, k.isLt⟩ : Fin n2) := by
  funext c; apply Fin.ext
  fin_cases c <;> rfl

/-- The host's reduce with a maximum body over the last axis of a three-axis array reads, at `(a, b)`, the fold of
    `max` over that row from the initial value. -/
theorem hostRowMax3_apply {n0 n1 n2 : ℕ} {u : Shape} (x : FVec Ideal ⟨3, ![n0, n1, n2]⟩ .f32) (init : u.Idx → Ideal .f32)
    (h' : (⟨3, ![n0, n1, n2]⟩ : Shape).ReducesTo [2] ⟨2, ![n0, n1]⟩) (h : (⟨3, ![n0, n1, n2]⟩ : Shape).Reduces [2] ⟨2, ![n0, n1]⟩)
    (hu : 0 < u.numel) (a : Fin n0) (b : Fin n1) :
    Host.reduce FloatOps.maximumf x init h' hu (ix2 a b)
      = (Finset.univ : Finset (Fin n2)).fold max (init (Shape.Idx.first hu)) (fun k => x (ix3 a b k)) :=
  (Host.reduce_eq_fold_single FloatOps.maximumf x init h' h hu (ix2 a b)).trans
    (congrArg (fun f => Finset.fold max (init (Shape.Idx.first hu)) f (Finset.univ : Finset (Fin n2)))
      (funext fun k => congrArg x (lift_last3 h a b k)))

/-- A maximum taken once more with its own starting value is unchanged. -/
theorem max_fold_max {ι : Type} (s : Finset ι) (b : EReal) (f : ι → EReal) :
    max b (s.fold max b f) = s.fold max b f :=
  max_eq_right ((Finset.le_fold_max b).mpr (Or.inl le_rfl))

/-! ## The products of two-axis arrays -/

/-- Both operands contracted on their SECOND axis, into a zero accumulator: `out (i, j) = Σ k, A (i, k) · B (j, k)`. -/
theorem matmul_nt_apply {M K N : ℕ} {φ₁ φ₂ : FTy} (d : DotDims ⟨2, ![M, K]⟩ ⟨2, ![N, K]⟩ ⟨2, ![M, N]⟩)
    (prec : Option ContractPrecision) (hr : d.contr.rank = 1) (hs : d.contr.size ⟨0, by omega⟩ = K)
    (hl0 : ∀ j q, (d.lhsIdx j q 0).val = (j 0).val) (hl1 : ∀ j q, (d.lhsIdx j q 1).val = (q ⟨0, by omega⟩).val)
    (hr0 : ∀ j q, (d.rhsIdx j q 0).val = (j 1).val) (hr1 : ∀ j q, (d.rhsIdx j q 1).val = (q ⟨0, by omega⟩).val)
    (A : FVec Ideal ⟨2, ![M, K]⟩ φ₁) (B : FVec Ideal ⟨2, ![N, K]⟩ φ₂) (i : Fin M) (j : Fin N) :
    matmul d prec A B (constant ⟨2, ![M, N]⟩ .f32 0x00000000#32) (ix2 i j) = ∑ k : Fin K, A (ix2 i k) * B (ix2 j k) := by
  refine (Ideal.matmul_constant_zero_apply d prec A B (ix2 i j)).trans ?_
  rw [← Equiv.sum_comp (contrEquiv1 d K hr hs).symm]
  refine Finset.sum_congr rfl fun k _ => ?_
  have hk := contrEquiv1_symm_val d K hr hs k
  have el : d.lhsIdx (ix2 i j) ((contrEquiv1 d K hr hs).symm k) = ix2 i k := funext fun a => Fin.ext (by
    match a with
    | ⟨0, _⟩ => exact hl0 _ _
    | ⟨1, _⟩ => exact (hl1 _ _).trans hk)
  have er : d.rhsIdx (ix2 i j) ((contrEquiv1 d K hr hs).symm k) = ix2 j k := funext fun a => Fin.ext (by
    match a with
    | ⟨0, _⟩ => exact hr0 _ _
    | ⟨1, _⟩ => exact (hr1 _ _).trans hk)
  rw [el, er]

/-- Both operands contracted on their FIRST axis, into a zero accumulator: `out (i, j) = Σ k, A (k, i) · B (k, j)`. -/
theorem matmul_tn_apply {M K N : ℕ} {φ₁ φ₂ : FTy} (d : DotDims ⟨2, ![K, M]⟩ ⟨2, ![K, N]⟩ ⟨2, ![M, N]⟩)
    (prec : Option ContractPrecision) (hr : d.contr.rank = 1) (hs : d.contr.size ⟨0, by omega⟩ = K)
    (hl0 : ∀ j q, (d.lhsIdx j q 0).val = (q ⟨0, by omega⟩).val) (hl1 : ∀ j q, (d.lhsIdx j q 1).val = (j 0).val)
    (hr0 : ∀ j q, (d.rhsIdx j q 0).val = (q ⟨0, by omega⟩).val) (hr1 : ∀ j q, (d.rhsIdx j q 1).val = (j 1).val)
    (A : FVec Ideal ⟨2, ![K, M]⟩ φ₁) (B : FVec Ideal ⟨2, ![K, N]⟩ φ₂) (i : Fin M) (j : Fin N) :
    matmul d prec A B (constant ⟨2, ![M, N]⟩ .f32 0x00000000#32) (ix2 i j) = ∑ k : Fin K, A (ix2 k i) * B (ix2 k j) := by
  refine (Ideal.matmul_constant_zero_apply d prec A B (ix2 i j)).trans ?_
  rw [← Equiv.sum_comp (contrEquiv1 d K hr hs).symm]
  refine Finset.sum_congr rfl fun k _ => ?_
  have hk := contrEquiv1_symm_val d K hr hs k
  have el : d.lhsIdx (ix2 i j) ((contrEquiv1 d K hr hs).symm k) = ix2 k i := funext fun a => Fin.ext (by
    match a with
    | ⟨0, _⟩ => exact (hl0 _ _).trans hk
    | ⟨1, _⟩ => exact hl1 _ _)
  have er : d.rhsIdx (ix2 i j) ((contrEquiv1 d K hr hs).symm k) = ix2 k j := funext fun a => Fin.ext (by
    match a with
    | ⟨0, _⟩ => exact (hr0 _ _).trans hk
    | ⟨1, _⟩ => exact hr1 _ _)
  rw [el, er]

end Cert.RowOps

end
-- ==== Proof.Payload.lean ====
/-
  The two stored values of the kernel body, read at one element, on the extended reals.

  * The scale array: from a 512 × 1000 block of logits, every column `l` of row `r` holds the row's noise scale
    `min (0.1 · (1 + 1 · (1 / Σ_k exp (z_k · 1 − max_k z_k · 1)))) 1` of that row's logits `z`.
  * The output block: at `(r, q)` the first input plus, where the second is below 0.3, the third times entry `(r, 0)` of the
    512 × 1 column handed in, and plus zero elsewhere.
-/
import proofs.«127631_j20770461843629_2_alg».proof.Proof.Gen.KernelIdeal.Skeleton
import proofs.«127631_j20770461843629_2_alg».proof.Proof.Spec
import proofs.«127631_j20770461843629_2_alg».proof.Proof.LibRowOps
import Idealize.ShloMosaic.Lib.ValueIdx
import Idealize.ShloMosaic.Lib.Pipeline.Value
import Idealize.ShloMosaic.PureOps.Ideal.Laws

noncomputable section

namespace Cert.KernelIdeal.Payload

open Cert.KernelIdeal Cert.KernelIdeal.Gen Idealize.ShloMosaic Idealize.ShloMosaic.ValueIdx Cert.NoiseMask Cert.RowOps

/-- Row `r` of a 512 × 1000 block, as a function of the column. -/
abbrev rowOf (x0 : Vec Ideal S512x1000 .f32) (r : Fin 512) : Fin 1000 → EReal := fun k => x0 (ix2 r k)

/-- The largest of row `r`'s logits (each times one), as the body computes it: a lane maximum kept as a column and
    repeated across the 1000 columns. -/
theorem rowMax_at (x0 : Vec Ideal S512x1000 .f32) (r : Fin 512) (k : Fin 1000) :
    broadcastTo S512x1000 (shapeCast S512x1 (multiReduction (F := Ideal) .maximumf [1] S512
        (mulf x0 (broadcast S512x1000 (Scalar.ofBits .f32 0x3F800000#32))) 0xFF800000#32 reduces_S512x1000_S512 (.inl rfl) rfl)
        shapeCasts_S512_S512x1) broadcasts_S512x1_S512x1000 (ix2 r k) = rowMax (rowOf x0 r) := by
  refine (broadcastTo_a1_ab_apply _ _ r k).trans ?_
  refine (shapeCast_a_a1_apply _ _ r 0).trans ?_
  exact rowMax_apply _ _ _ _ _ r

/-- The scale array at `(r, l)` is the scale of row `r`'s logits. -/
theorem pay1_apply (x0 : Vec Ideal S512x1000 .f32) (r : Fin 512) (l : Fin 128) :
    k0_pay1 (F := Ideal) x0 (ix2 r l) = scale (rowOf x0 r) := by
  unfold k0_pay1
  (try dsimp only)
  refine (congrFun (shapeCast_self _ _) _).trans ?_
  refine (broadcastTo_a1_ab_apply _ _ r l).trans ?_
  refine (congrFun (shapeCast_self _ _) _).trans ?_
  unfold scale conf
  refine congrArg (fun z => min (Ideal.ofBits .f32 0x3DCCCCCD#32 * (Ideal.ofBits .f32 0x3F800000#32 + Ideal.ofBits .f32 0x3F800000#32 * Ideal.div (Ideal.ofBits .f32 0x3F800000#32) z)) (Ideal.ofBits .f32 0x3F800000#32)) ?_
  refine (shapeCast_a_a1_apply _ _ r 0).trans ?_
  refine (rowSum_apply _ _ _ _ _ r).trans ?_
  unfold rowSum
  refine Finset.sum_congr rfl fun k _ => ?_
  refine congrArg (fun z => Ideal.exp (x0 (ix2 r k) * Ideal.ofBits .f32 0x3F800000#32 - z)) ?_
  exact rowMax_at x0 r k

/-- The output block at `(r, q)`. -/
theorem pay2_apply (x1 x2 x3 : Vec Ideal S512x1024 .f32) (v6 : Vec Ideal S512x1 .f32) (r : Fin 512) (q : Fin 1024) :
    k0_pay2 (F := Ideal) x1 x2 x3 v6 (ix2 r q)
      = x1 (ix2 r q) + Scalar.select (Ideal.cmp .olt (x2 (ix2 r q)) (Ideal.ofBits .f32 0x3E99999A#32))
          (x3 (ix2 r q) * v6 (ix2 r (0 : Fin 1))) (Ideal.ofBits .f32 0x00000000#32) := by
  unfold k0_pay2
  (try dsimp only)
  refine congrArg (fun z => x1 (ix2 r q) + Scalar.select (Ideal.cmp .olt (x2 (ix2 r q)) (Ideal.ofBits .f32 0x3E99999A#32))
          (x3 (ix2 r q) * z) (Ideal.ofBits .f32 0x00000000#32)) ?_
  refine (broadcastTo_a1_ab_apply _ _ r q).trans ?_
  exact congrFun (shapeCast_self _ _) _

end Cert.KernelIdeal.Payload

end
-- ==== Proof.Blocks.lean ====
/-
  From the grid points to the whole result array.

  The grid has 8 × 4 points; point `t` works on row block `t / 4` (512 rows) and column block `t % 4` (1024 columns).
  * A block of an input read at `(r, q)` is the array at row `512 · (t / 4) + r` (and column `1024 · (t % 4) + q`; the logits'
    block spans all 1000 columns).
  * The scratch after point `t` holds, in each of its 128 columns, the noise scale of the logits' rows `512 · (t / 4) + r`:
    it is filled at the first point of each row block and left alone at the other three.
  * So the output block every point writes back is the specification restricted to the block, the 32 blocks fill the array,
    and the array ends as the specification of the four argument arrays.
-/
import proofs.«127631_j20770461843629_2_alg».proof.Proof.Gen.KernelIdeal.Value
import proofs.«127631_j20770461843629_2_alg».proof.Proof.Pieces
import proofs.«127631_j20770461843629_2_alg».proof.Proof.Payload
import proofs.«127631_j20770461843629_2_alg».proof.Proof.Spec
import Idealize.ShloMosaic.Lib.Pipeline.Value

noncomputable section

namespace Cert.KernelIdeal.Blocks

open Cert.KernelIdeal Cert.KernelIdeal.Gen Idealize.ShloMosaic Idealize.ShloMosaic.TcCoe Idealize.SL.Sem
open Idealize.ShloMosaic.ValueIdx Cert.NoiseMask Cert.KernelIdeal.Pieces Cert.KernelIdeal.Payload
open Idealize.ShloMosaic.Pipeline (Dat)

variable (m : (ℓ : Loc nD τ sig) → Buf (Elt Ideal) ℓ) (ρ : Dev nD → PrngReg)

/-- The four argument arrays on core `c`, as the run finds them. -/
abbrev argX (c : Dev nD) : S4096x4096.Idx → EReal := m ((c : Thread nD τ).loc main_arg0)
abbrev argMO (c : Dev nD) : S4096x1000.Idx → EReal := m ((c : Thread nD τ).loc main_arg1)
abbrev argRU (c : Dev nD) : S4096x4096.Idx → EReal := m ((c : Thread nD τ).loc main_arg2)
abbrev argNS (c : Dev nD) : S4096x4096.Idx → EReal := m ((c : Thread nD τ).loc main_arg3)

/-- The result array: the specification of the four argument arrays. -/
abbrev result (c : Dev nD) : S4096x4096.Idx → EReal := G (argX m c) (argMO m c) (argRU m c) (argNS m c)

/-- The printed index maps over the 32 points: every window's row block is `t / 4`; the logits' column block is 0, the
    others' `t % 4`. -/
theorem idx_facts : ∀ t : Fin cfg0.N,
    win0_0.index t (0 : Fin 2) = t.val / 4 ∧ win0_0.index t (1 : Fin 2) = 0
    ∧ win0_1.index t (0 : Fin 2) = t.val / 4 ∧ win0_1.index t (1 : Fin 2) = t.val % 4
    ∧ win0_2.index t (0 : Fin 2) = t.val / 4 ∧ win0_2.index t (1 : Fin 2) = t.val % 4
    ∧ win0_3.index t (0 : Fin 2) = t.val / 4 ∧ win0_3.index t (1 : Fin 2) = t.val % 4
    ∧ win0_4.index t (0 : Fin 2) = t.val / 4 ∧ win0_4.index t (1 : Fin 2) = t.val % 4 :=
  (by decide +kernel : ∀ t : Fin grid0.N, _)

/-! ## The input blocks -/

/-- The logits' block at point `t`: rows `512 · (t / 4) + r`, all columns. -/
theorem iblk0_apply (c : Dev nD) (t : Fin cfg0.N) (x : S512x1000.Idx) (k : S4096x1000.Idx)
    (hk0 : (k 0).val = 512 * (t.val / 4) + (x 0).val) (hk1 : (k 1).val = (x 1).val) :
    (iblk m c 0 t : Vec Ideal S512x1000 .f32) x = argMO m c k := by
  obtain ⟨e0, e1, -⟩ := idx_facts t
  unfold iblk
  rw [View.read_apply]
  show V m c main_arg1 _ = m (c.tc.loc main_arg1) _
  unfold V
  congr 1
  funext a
  apply Fin.ext
  match a with
  | ⟨0, _⟩ => show win0_0.index t 0 * 512 + 1 * (x 0).val = (k 0).val; rw [e0, hk0]; omega
  | ⟨1, _⟩ => show win0_0.index t 1 * 1000 + 1 * (x 1).val = (k 1).val; rw [e1, hk1]; omega

/-- The first input's block at point `t`. -/
theorem iblk1_apply (c : Dev nD) (t : Fin cfg0.N) (x : S512x1024.Idx) (k : S4096x4096.Idx)
    (hk0 : (k 0).val = 512 * (t.val / 4) + (x 0).val) (hk1 : (k 1).val = 1024 * (t.val % 4) + (x 1).val) :
    (iblk m c 1 t : Vec Ideal S512x1024 .f32) x = argX m c k := by
  obtain ⟨-, -, e0, e1, -⟩ := idx_facts t
  unfold iblk
  rw [View.read_apply]
  show V m c main_arg0 _ = m (c.tc.loc main_arg0) _
  unfold V
  congr 1
  funext a
  apply Fin.ext
  match a with
  | ⟨0, _⟩ => show win0_1.index t 0 * 512 + 1 * (x 0).val = (k 0).val; rw [e0, hk0]; omega
  | ⟨1, _⟩ => show win0_1.index t 1 * 1024 + 1 * (x 1).val = (k 1).val; rw [e1, hk1]; omega

/-- The second input's block at point `t`. -/
theorem iblk2_apply (c : Dev nD) (t : Fin cfg0.N) (x : S512x1024.Idx) (k : S4096x4096.Idx)
    (hk0 : (k 0).val = 512 * (t.val / 4) + (x 0).val) (hk1 : (k 1).val = 1024 * (t.val % 4) + (x 1).val) :
    (iblk m c 2 t : Vec Ideal S512x1024 .f32) x = argRU m c k := by
  obtain ⟨-, -, -, -, e0, e1, -⟩ := idx_facts t
  unfold iblk
  rw [View.read_apply]
  show V m c main_arg2 _ = m (c.tc.loc main_arg2) _
  unfold V
  congr 1
  funext a
  apply Fin.ext
  match a with
  | ⟨0, _⟩ => show win0_2.index t 0 * 512 + 1 * (x 0).val = (k 0).val; rw [e0, hk0]; omega
  | ⟨1, _⟩ => show win0_2.index t 1 * 1024 + 1 * (x 1).val = (k 1).val; rw [e1, hk1]; omega

/-- The third input's block at point `t`. -/
theorem iblk3_apply (c : Dev nD) (t : Fin cfg0.N) (x : S512x1024.Idx) (k : S4096x4096.Idx)
    (hk0 : (k 0).val = 512 * (t.val / 4) + (x 0).val) (hk1 : (k 1).val = 1024 * (t.val % 4) + (x 1).val) :
    (iblk m c 3 t : Vec Ideal S512x1024 .f32) x = argNS m c k := by
  obtain ⟨-, -, -, -, -, -, e0, e1, -⟩ := idx_facts t
  unfold iblk
  rw [View.read_apply]
  show V m c main_arg3 _ = m (c.tc.loc main_arg3) _
  unfold V
  congr 1
  funext a
  apply Fin.ext
  match a with
  | ⟨0, _⟩ => show win0_3.index t 0 * 512 + 1 * (x 0).val = (k 0).val; rw [e0, hk0]; omega
  | ⟨1, _⟩ => show win0_3.index t 1 * 1024 + 1 * (x 1).val = (k 1).val; rw [e1, hk1]; omega

/-! ## The scratch after each point -/

/-- Column 0 of the scratch read as a 512 × 1 column: entry `(r, 0)` is the scratch at `(r, 0)`. -/
theorem col0_apply (Xs : Vec Ideal S512x128 .f32) (r : Fin 512) :
    col0 Xs (ix2 r (0 : Fin 1)) = Xs (ix2 r (0 : Fin 128)) := by
  show Xs _ = Xs _
  refine congrArg Xs (funext fun a => Fin.ext ?_)
  match a with
  | ⟨0, _⟩ => show 0 + 1 * r.val = r.val; omega
  | ⟨1, _⟩ => show 0 + 1 * 0 = 0; rfl

/-- After point `n` the scratch holds at `(r, l)` the noise scale of the logits' row `512 · (n / 4) + r`: computed at the
    first point of the row block, kept by the three that follow. -/
theorem scratch_at (c : Dev nD) : ∀ (n : ℕ) (h : n < cfg0.N) (r : Fin 512) (l : Fin 128) (R : Fin 4096),
    R.val = 512 * (n / 4) + r.val →
    (outsAt0 m c n h).2 (ix2 r l) = scale (fun k => argMO m c (ix2 R k)) := by
  intro n
  induction n with
  | zero =>
    intro h r l R hR
    rw [outsAt0_A m c ⟨0, h⟩ rfl]
    dsimp only
    rw [sout_A, pay1_apply]
    refine congrArg scale (funext fun k => ?_)
    exact iblk0_apply m c ⟨0, h⟩ (ix2 r k) (ix2 R k) hR rfl
  | succ n ih =>
    intro h r l R hR
    by_cases h0 : (n + 1) % 4 = 0
    · rw [outsAt0_A m c ⟨n + 1, h⟩ h0]
      dsimp only
      rw [sout_A, pay1_apply]
      refine congrArg scale (funext fun k => ?_)
      exact iblk0_apply m c ⟨n + 1, h⟩ (ix2 r k) (ix2 R k) hR rfl
    · rw [outsAt0_B m c ⟨n + 1, h⟩ h0]
      dsimp only
      unfold sout0_B_0
      exact ih (Nat.lt_of_succ_lt h) r l R (by omega)

/-! ## What each point writes back -/

/-- The output block after point `t`, at `x`, is the specification at the array index `k` the block puts `x` at. -/
theorem out_at (c : Dev nD) (t : Fin cfg0.N) (x : S512x1024.Idx) (k : S4096x4096.Idx)
    (hk0 : (k 0).val = 512 * (t.val / 4) + (x 0).val) (hk1 : (k 1).val = 1024 * (t.val % 4) + (x 1).val) :
    (outsAt0 m c t.val t.isLt).1 x = result m c k := by
  obtain ⟨r, q, rfl⟩ : ∃ (r : Fin 512) (q : Fin 1024), x = ix2 r q := ⟨x 0, x 1, eq_ix2 x⟩
  obtain ⟨R, C, rfl⟩ : ∃ (R : Fin 4096) (C : Fin 4096), k = ix2 R C := ⟨k 0, k 1, eq_ix2 k⟩
  have hN : t.val < 32 := lt_of_lt_of_eq t.isLt (show cfg0.N = 32 from N_0)
  show _ = outAt (argX m c) (argMO m c) (argRU m c) (argNS m c) R C
  unfold outAt
  by_cases h0 : t.val % 4 = 0
  · rw [outsAt0_A m c t h0]
    dsimp only
    rw [out_A, pay2_apply, col0_apply, pay1_apply,
      iblk1_apply m c t (ix2 r q) (ix2 R C) hk0 hk1, iblk2_apply m c t (ix2 r q) (ix2 R C) hk0 hk1,
      iblk3_apply m c t (ix2 r q) (ix2 R C) hk0 hk1]
    refine congrArg (fun z => argX m c (ix2 R C) + Scalar.select (Ideal.cmp .olt (argRU m c (ix2 R C)) (Ideal.ofBits .f32 0x3E99999A#32)) (argNS m c (ix2 R C) * scale z) (Ideal.ofBits .f32 0x00000000#32)) (funext fun k' => ?_)
    exact iblk0_apply m c t (ix2 r k') (ix2 R k') hk0 rfl
  · rw [outsAt0_B m c t h0]
    dsimp only
    rw [out_B, pay2_apply, col0_apply,
      iblk1_apply m c t (ix2 r q) (ix2 R C) hk0 hk1, iblk2_apply m c t (ix2 r q) (ix2 R C) hk0 hk1,
      iblk3_apply m c t (ix2 r q) (ix2 R C) hk0 hk1,
      scratch_at m c (t.val - 1) (Nat.lt_of_le_of_lt (Nat.sub_le _ _) t.isLt) r (0 : Fin 128) R (by
        have e : (R : Fin 4096).val = 512 * (t.val / 4) + r.val := hk0
        omega)]

/-- What point `t` writes back is block `t` of the specification. -/
theorem flushed_eq (c : Dev nD) (t : Fin cfg0.N) :
    (dats m 0 c).flushed 4 t = ((cfg0.win 4).blk t).view.read (Elt Ideal) (result m c) := by
  obtain ⟨-, -, -, -, -, -, -, -, e0, e1⟩ := idx_facts t
  rw [Value.flushed4]
  funext j
  show (outsAt0 m c t.val t.isLt).1 j = result m c (((cfg0.win 4).blk t).view.emb j)
  refine out_at m c t j _ ?_ ?_
  · show win0_4.index t (0 : Fin 2) * 512 + 1 * (j 0).val = 512 * (t.val / 4) + (j 0).val
    rw [e0]; omega
  · show win0_4.index t (1 : Fin 2) * 1024 + 1 * (j 1).val = 1024 * (t.val % 4) + (j 1).val
    rw [e1]; omega

/-- An index of the array is in point `t`'s block iff each coordinate is in the block's range on its axis. -/
theorem mem_blk (t : Fin cfg0.N) (i : S4096x4096.Idx) :
    i ∈ ((cfg0.win 4).blk t).view.set ↔ ∀ a : Fin 2, win0_4.index t a * S512x1024.size a ≤ (i a).val ∧ (i a).val < win0_4.index t a * S512x1024.size a + S512x1024.size a := by
  show i ∈ ((View.whole main_v0).slice (win0_4.rect t)).set ↔ _
  rw [View.set_slice_whole, Rect.mem_set_unit]
  exact Iff.rfl

/-- Every index of the array lies in the block of the point `4 · (row / 512) + column / 1024`. -/
theorem cover (i : S4096x4096.Idx) : ∃ t : Fin cfg0.N, (cfg0.win 4).flush t = true ∧ i ∈ ((cfg0.win 4).blk t).view.set := by
  have hi0 : (i 0).val < 4096 := (i 0).isLt
  have hi1 : (i 1).val < 4096 := (i 1).isLt
  have hN : cfg0.N = 32 := N_0
  let t : Fin cfg0.N := ⟨4 * ((i 0).val / 512) + (i 1).val / 1024, by rw [hN]; omega⟩
  have ht : t.val = 4 * ((i 0).val / 512) + (i 1).val / 1024 := rfl
  obtain ⟨-, -, -, -, -, -, -, -, e0, e1⟩ := idx_facts t
  refine ⟨t, flush0_4 t, ?_⟩
  rw [mem_blk]
  intro a
  match a with
  | ⟨0, _⟩ => show win0_4.index t (0 : Fin 2) * 512 ≤ (i 0).val ∧ (i 0).val < win0_4.index t (0 : Fin 2) * 512 + 512; rw [e0, ht]; omega
  | ⟨1, _⟩ => show win0_4.index t (1 : Fin 2) * 1024 ≤ (i 1).val ∧ (i 1).val < win0_4.index t (1 : Fin 2) * 1024 + 1024; rw [e1, ht]; omega

/-- The result array after the run is the specification of the four argument arrays. -/
theorem final (c : Dev nD) : (dats m 0 c).arrAt 4 cfg0.N = result m c :=
  (dats m 0 c).arrAt_eq_of_cover 4 (result m c) (fun t _ => flushed_eq m c t) (cover)

/-- The run, read: the result array at the specification, the arguments unchanged. -/
theorem run : θ_run defs (onTc (τ := τ) (main (F := Ideal))) ⟨m, fun _ => 0, ρ⟩ fun r => ∀ c : Dev nD,
      r.2.mem ((c : Thread nD τ).loc main_v0) = Cert.NoiseMask.G (m ((c : Thread nD τ).loc main_arg0)) (m ((c : Thread nD τ).loc main_arg1)) (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (Value.run_blocks m ρ)

end Cert.KernelIdeal.Blocks

end
-- ==== Proof.ConfLaw.lean ====
/-
  The reference's confidence is the specification's.

  The reference program divides each logit by one, takes the row maximum once more against −∞,
  starts its sum from zero, and takes as confidence the largest of the quotients `e_k / S`
  (`e_k = exp (b_k − M)`, `S = Σ_k e_k`). For a row of real logits this is `1 / S`:
  the maximum `M` is attained at some `k₀`, so `e_{k₀} = 1` and every `e_k ≤ 1`, and `S` is a
  real number, at least one; hence every quotient is at most `1 / S` and the one at `k₀` is `1 / S`.
-/
import proofs.«127631_j20770461843629_2_alg».proof.Proof.Spec
import Idealize.ShloMosaic.Lib.IdealHost

noncomputable section

namespace Cert.NoiseMask

open Idealize.ShloMosaic

/-- The word of −∞ is the bottom of the extended reals. -/
theorem ofBits_negInf_f32 : Ideal.ofBits .f32 0xFF800000#32 = ⊥ := by simp [Ideal.ofBits, Ideal.ieee]

/-- The reference's logit: the row's, divided by one. -/
def refLogit (row : Fin 1000 → EReal) (k : Fin 1000) : EReal :=
  Ideal.div (row k) (Ideal.ofBits .f32 0x3F800000#32)

/-- The reference's row maximum: the fold of `max` from −∞, then once more `max` with −∞. -/
def refMax (row : Fin 1000 → EReal) : EReal :=
  max (Ideal.ofBits .f32 0xFF800000#32)
    ((Finset.univ : Finset (Fin 1000)).fold max (Ideal.ofBits .f32 0xFF800000#32) (fun k => refLogit row k))

/-- The reference's shifted exponential. -/
def refExp (row : Fin 1000 → EReal) (k : Fin 1000) : EReal :=
  Ideal.exp (refLogit row k - refMax row)

/-- The reference's sum: from the word of zero. -/
def refSum (row : Fin 1000 → EReal) : EReal :=
  Ideal.ofBits .f32 0x00000000#32 + ∑ k : Fin 1000, refExp row k

/-- The reference's confidence: the largest softmax probability, as a fold of `max` from −∞. -/
def refConf (row : Fin 1000 → EReal) : EReal :=
  (Finset.univ : Finset (Fin 1000)).fold max (Ideal.ofBits .f32 0xFF800000#32)
    (fun k => Ideal.div (refExp row k) (refSum row))

/-- Dividing by the word of one changes nothing. -/
theorem div_one_word (x : EReal) : Ideal.div x (Ideal.ofBits .f32 0x3F800000#32) = x := by
  rw [Ideal.ofBits_one_f32, Ideal.div, if_neg one_ne_zero, inv_one, mul_one]

/-- Multiplying by the word of one changes nothing. -/
theorem mul_one_word (x : EReal) : x * Ideal.ofBits .f32 0x3F800000#32 = x := by
  rw [Ideal.ofBits_one_f32, mul_one]

/-- A fold of `max` from the bottom is the supremum. -/
theorem fold_max_bot (f : Fin 1000 → EReal) :
    (Finset.univ : Finset (Fin 1000)).fold max ⊥ f = Finset.univ.sup f := rfl

/-- A finite sum of real numbers, read in the extended reals. -/
theorem coe_sum {ι : Type} (s : Finset ι) (f : ι → ℝ) :
    (∑ k ∈ s, ((f k : ℝ) : EReal)) = ((∑ k ∈ s, f k : ℝ) : EReal) := by
  classical
  induction s using Finset.induction_on with
  | empty => simp
  | insert _ _ h ih => rw [Finset.sum_insert h, Finset.sum_insert h, ih, EReal.coe_add]

theorem refLogit_eq (row : Fin 1000 → EReal) (k : Fin 1000) : refLogit row k = row k := div_one_word _

theorem refMax_eq (row : Fin 1000 → EReal) : refMax row = rowMax row := by
  unfold refMax rowMax
  simp only [refLogit_eq, mul_one_word, ofBits_negInf_f32, bot_le, max_eq_right]

theorem refExp_eq (row : Fin 1000 → EReal) (k : Fin 1000) :
    refExp row k = Ideal.exp (row k * Ideal.ofBits .f32 0x3F800000#32 - rowMax row) := by
  unfold refExp
  rw [refLogit_eq, refMax_eq, mul_one_word]

theorem refSum_eq (row : Fin 1000 → EReal) : refSum row = rowSum row := by
  unfold refSum rowSum
  simp only [refExp_eq, Ideal.ofBits_zero_f32, zero_add]

/-- For a row of real logits the reference's confidence is one over the sum. -/
theorem refConf_eq_conf (row : Fin 1000 → EReal) (hreal : ∀ k, ∃ a : ℝ, row k = (a : EReal)) :
    refConf row = conf row := by
  choose a ha using hreal
  obtain rfl : row = fun k => (a k : EReal) := funext ha
  -- the maximum is attained, at `k0`
  obtain ⟨k0, -, hk0⟩ := Finset.exists_mem_eq_sup (Finset.univ : Finset (Fin 1000)) Finset.univ_nonempty
    (fun k => (a k : EReal))
  have hM : rowMax (fun k => (a k : EReal)) = (a k0 : EReal) := by
    unfold rowMax
    simp only [mul_one_word, ofBits_negInf_f32]
    exact hk0
  have hle : ∀ k, a k ≤ a k0 := fun k => by
    have h : ((a k : ℝ) : EReal) ≤ Finset.univ.sup (fun k => (a k : EReal)) :=
      Finset.le_sup (f := fun k => (a k : EReal)) (Finset.mem_univ k)
    rw [hk0] at h
    exact_mod_cast h
  -- the sum is a real number, at least one
  have hE : ∀ k, refExp (fun k => (a k : EReal)) k = ((Real.exp (a k - a k0) : ℝ) : EReal) := fun k => by
    rw [refExp_eq, mul_one_word, hM, ← EReal.coe_sub, Ideal.exp_coe]
  have hS : rowSum (fun k => (a k : EReal)) = ((∑ k, Real.exp (a k - a k0) : ℝ) : EReal) := by
    unfold rowSum
    simp only [mul_one_word, hM, ← EReal.coe_sub, Ideal.exp_coe]
    exact coe_sum _ _
  have hs1 : (1 : ℝ) ≤ ∑ k, Real.exp (a k - a k0) := by
    calc (1 : ℝ) = Real.exp (a k0 - a k0) := by rw [sub_self, Real.exp_zero]
      _ ≤ ∑ k, Real.exp (a k - a k0) :=
        Finset.single_le_sum (f := fun k => Real.exp (a k - a k0)) (fun k _ => (Real.exp_pos _).le)
          (Finset.mem_univ k0)
  have hs0 : (0 : ℝ) < ∑ k, Real.exp (a k - a k0) := lt_of_lt_of_le one_pos hs1
  unfold refConf conf
  rw [refSum_eq, hS]
  simp only [hE, Ideal.div_coe hs0.ne', Ideal.ofBits_one_f32, ofBits_negInf_f32, one_mul]
  show Finset.univ.sup _ = _
  apply le_antisymm
  · refine Finset.sup_le fun k _ => ?_
    rw [← EReal.coe_mul, EReal.coe_le_coe_iff]
    calc Real.exp (a k - a k0) * (1 / ∑ k, Real.exp (a k - a k0))
        ≤ 1 * (1 / ∑ k, Real.exp (a k - a k0)) :=
          mul_le_mul_of_nonneg_right (Real.exp_le_one_iff.mpr (sub_nonpos.mpr (hle k)))
            (one_div_pos.mpr hs0).le
      _ = 1 / ∑ k, Real.exp (a k - a k0) := one_mul _
  · have h := Finset.le_sup
      (f := fun k => ((Real.exp (a k - a k0) : ℝ) : EReal) * ((1 / ∑ k, Real.exp (a k - a k0) : ℝ) : EReal))
      (Finset.mem_univ k0)
    simp only [sub_self, Real.exp_zero, EReal.coe_one, one_mul] at h
    exact h

end Cert.NoiseMask

end
-- ==== Proof.RefSpec.lean ====
/-
  The reference program computes the specification.

  Stage by stage, at an index: the logits divided by one, the row maximum (a fold of `max` over the row, then
  `max` with −∞), the shifted exponentials, their sum from zero, the quotients, the largest quotient, the
  noise scale, and the masked sum. Up to the largest quotient the stages are the terms of the reference's
  confidence, with no hypothesis; for a row of real logits that confidence is the specification's.
-/
import proofs.«127631_j20770461843629_2_alg».proof.Proof.Gen.ReferenceIdeal.Read
import proofs.«127631_j20770461843629_2_alg».proof.Proof.Spec
import proofs.«127631_j20770461843629_2_alg».proof.Proof.ConfLaw
import Idealize.ShloMosaic.PureOps.Ideal.Laws
import Idealize.ShloMosaic.Lib.IdealHost

noncomputable section

namespace Cert.NoiseMask.Ref

open Cert.ReferenceIdeal Cert.ReferenceIdeal.Gen Cert.ReferenceIdeal.Read
open Idealize.ShloMosaic Idealize.ShloMosaic.ValueIdx

/-- Row `r` of the logits. -/
abbrev rowOf (x1 : S4096x1000.Idx → EReal) (r : Fin 4096) : Fin 1000 → EReal := fun k => x1 (ix2 r k)

/-- The shape fact of the row reductions, in the form that names the inserted index. -/
theorem reduces_row : S4096x1000.Reduces [1] S4096 := by decide

/-- The index `r` with column `k` inserted is `(r, k)`. -/
theorem lift_ix1 (r : Fin 4096) (k : Fin 1000) : reduces_row.lift (ix1 r) k = ix2 r k :=
  funext fun a => Fin.ext (by match a with | ⟨0, _⟩ => rfl | ⟨1, _⟩ => rfl)

theorem idx_v5_v6 (r : Fin 4096) (k : Fin 1000) : idx_main_v5 (idx_main_v6 (ix2 r k)) = ix1 r :=
  funext fun a => Fin.ext (by match a with | ⟨0, _⟩ => rfl)

theorem idx_v9 (r : Fin 4096) (k : Fin 1000) : idx_main_v9 (ix1 r) k = ix2 r k :=
  funext fun a => Fin.ext (by match a with | ⟨0, _⟩ => rfl | ⟨1, _⟩ => rfl)

theorem idx_v10_v11 (r : Fin 4096) (k : Fin 1000) : idx_main_v10 (idx_main_v11 (ix2 r k)) = ix1 r :=
  funext fun a => Fin.ext (by match a with | ⟨0, _⟩ => rfl)

theorem idx_v22_v23 (r q : Fin 4096) : idx_main_v22 (idx_main_v23 (ix2 r q)) = ix1 r :=
  funext fun a => Fin.ext (by match a with | ⟨0, _⟩ => rfl)

variable (x1 : S4096x1000.Idx → EReal)

theorem v1_at (r : Fin 4096) (k : Fin 1000) : val_main_v1 (F := Ideal) x1 (ix2 r k) = refLogit (rowOf x1 r) k := by
  rw [val_main_v1_apply, val_main_v0_apply, val_main_cst_apply]
  rfl

theorem v2_at (r : Fin 4096) :
    val_main_v2 (F := Ideal) x1 (ix1 r)
      = (Finset.univ : Finset (Fin 1000)).fold max (Ideal.ofBits .f32 0xFF800000#32) (fun k => refLogit (rowOf x1 r) k) := by
  unfold val_main_v2
  rw [Host.reduce_eq_fold_single FloatOps.maximumf _ _ reducesTo_S4096x1000_S4096_d1 reduces_row h_S_ (ix1 r)]
  rw [val_main_cst_0_apply]
  refine Finset.fold_congr fun (k : Fin 1000) _ => ?_
  exact (congrArg (val_main_v1 (F := Ideal) x1) (lift_ix1 r k)).trans (v1_at x1 r k)

theorem v4_at (r : Fin 4096) : val_main_v4 (F := Ideal) x1 (ix1 r) = refMax (rowOf x1 r) := by
  rw [val_main_v4_apply, val_main_v3_apply, val_main_cst_1_apply, v2_at]
  rfl

theorem v6_at (r : Fin 4096) (k : Fin 1000) : val_main_v6 (F := Ideal) x1 (ix2 r k) = refMax (rowOf x1 r) := by
  rw [val_main_v6_apply, val_main_v5_apply, idx_v5_v6, v4_at]

theorem v8_at (r : Fin 4096) (k : Fin 1000) : val_main_v8 (F := Ideal) x1 (ix2 r k) = refExp (rowOf x1 r) k := by
  rw [val_main_v8_apply, val_main_v7_apply, v1_at, v6_at]
  rfl

theorem v9_at (r : Fin 4096) : val_main_v9 (F := Ideal) x1 (ix1 r) = refSum (rowOf x1 r) := by
  rw [val_main_v9_apply, val_main_cst_2_apply]
  simp only [idx_v9, v8_at]
  rfl

theorem v11_at (r : Fin 4096) (k : Fin 1000) : val_main_v11 (F := Ideal) x1 (ix2 r k) = refSum (rowOf x1 r) := by
  rw [val_main_v11_apply, val_main_v10_apply, idx_v10_v11, v9_at]

theorem v12_at (r : Fin 4096) (k : Fin 1000) :
    val_main_v12 (F := Ideal) x1 (ix2 r k) = Ideal.div (refExp (rowOf x1 r) k) (refSum (rowOf x1 r)) := by
  rw [val_main_v12_apply, v8_at, v11_at]
  rfl

theorem v13_at (r : Fin 4096) : val_main_v13 (F := Ideal) x1 (ix1 r) = refConf (rowOf x1 r) := by
  unfold val_main_v13
  rw [Host.reduce_eq_fold_single FloatOps.maximumf _ _ reducesTo_S4096x1000_S4096_d1 reduces_row h_S_ (ix1 r)]
  rw [val_main_cst_3_apply]
  refine Finset.fold_congr fun (k : Fin 1000) _ => ?_
  exact (congrArg (val_main_v12 (F := Ideal) x1) (lift_ix1 r k)).trans (v12_at x1 r k)

/-- For a row of real logits the reference's scale is the specification's. -/
theorem v21_at (r : Fin 4096) (hreal : ∀ k, ∃ a : ℝ, x1 (ix2 r k) = (a : EReal)) :
    val_main_v21 (F := Ideal) x1 (ix1 r) = scale (rowOf x1 r) := by
  rw [val_main_v21_apply, val_main_v19_apply, val_main_v17_apply, val_main_v15_apply, v13_at,
    val_main_v14_apply, val_main_cst_4_apply, val_main_v16_apply, val_main_cst_5_apply,
    val_main_v18_apply, val_main_cst_6_apply, val_main_v20_apply, val_main_cst_7_apply,
    refConf_eq_conf (rowOf x1 r) hreal]
  rfl

theorem v23_at (r q : Fin 4096) (hreal : ∀ k, ∃ a : ℝ, x1 (ix2 r k) = (a : EReal)) :
    val_main_v23 (F := Ideal) x1 (ix2 r q) = scale (rowOf x1 r) := by
  rw [val_main_v23_apply, val_main_v22_apply, idx_v22_v23, v21_at x1 r hreal]

/-- The reference's result is the specification, when every logit is a real number. -/
theorem ref_eq_G (x0 : S4096x4096.Idx → EReal) (x1 : S4096x1000.Idx → EReal) (x2 x3 : S4096x4096.Idx → EReal)
    (hreal : ∀ i, ∃ a : ℝ, x1 i = (a : EReal)) :
    val_main_v28 (F := Ideal) x0 x1 x2 x3 = G x0 x1 x2 x3 := by
  funext i
  obtain ⟨r, q, rfl⟩ : ∃ (r q : Fin 4096), i = ix2 r q := ⟨i 0, i 1, eq_ix2 i⟩
  rw [val_main_v28_apply, val_main_v27_apply, val_main_v26_apply, val_main_v25_apply, val_main_cst_8_apply,
    val_main_v24_apply, v23_at x1 r q (fun k => hreal _), val_main_call0_v0_apply, val_main_cst_9_apply]
  rfl

end Cert.NoiseMask.Ref

end
-- ==== Proof.Finite.lean ====
/-
  The precondition gives real logits.

  The precondition is the conjunction, over the four argument arrays, of "every element's absolute value is
  below +∞". An extended real whose absolute value `max x (−x)` is below `⊤` is neither `⊤` nor `⊥`: it is a
  real number. Read at the logits this says every logit is real.
-/
import proofs.«127631_j20770461843629_2_alg».proof.Defs
import proofs.«127631_j20770461843629_2_alg».proof.Proof.Gen.Pre_finite_inputs
import Idealize.ShloMosaic.Lib.ReduceAll
import Idealize.ShloMosaic.Lib.ValueIdx
import Idealize.ShloMosaic.PureOps.Ideal.Laws

noncomputable section

namespace Cert.NoiseMask.Finite

open Idealize.ShloMosaic Idealize.ShloMosaic.ValueIdx Idealize.SL.Sem
open Cert.Pre_finite_inputs

/-- The rank-zero shape has one index. -/
instance : Subsingleton S_.Idx := ⟨fun a b => funext fun d => d.elim0⟩

/-- The word of +∞ is the top of the extended reals. -/
theorem ofBits_posInf_f32 : Ideal.ofBits .f32 0x7F800000#32 = ⊤ := by simp [Ideal.ofBits, Ideal.ieee]

/-- An extended real whose absolute value compares below +∞ is a real number. -/
theorem real_of_abs_lt_top (x : EReal)
    (h : Ideal.cmp .olt (max x (-x)) (Ideal.ofBits .f32 0x7F800000#32) = 1#1) : ∃ r : ℝ, x = (r : EReal) := by
  rw [ofBits_posInf_f32] at h
  induction x using EReal.rec with
  | bot => simp [Ideal.cmp] at h
  | top => simp [Ideal.cmp] at h
  | coe r => exact ⟨r, rfl⟩

/-- From the precondition: every logit is a real number. -/
theorem arg1_real [Facts] (a0 : FVec Ideal S4096x4096 .f32) (a1 : FVec Ideal S4096x1000 .f32)
    (a2 a3 : FVec Ideal S4096x4096 .f32)
    (h : fn (F := Ideal) a0 a1 a2 a3 = (fun _ => 1#1)) : ∀ i, ∃ r : ℝ, a1 i = (r : EReal) := by
  intro i
  have e := congrFun h ix0
  dsimp only [fn, fn_part1, andi] at e
  rw [IntOp.andi_eq_one, IntOp.andi_eq_one, IntOp.andi_eq_one] at e
  obtain ⟨⟨⟨-, e1⟩, -⟩, -⟩ := e
  have hi := Host.reduce_andi_all _ _ _ _ _ e1 i
  exact real_of_abs_lt_top (a1 i) hi

/-- The same of the logits a launch memory holds, on every device, from the precondition as the claims state it. -/
theorem logits_real [Facts]
    (m : (ℓ : Loc Cert.KernelIdeal.nD Cert.KernelIdeal.τ Cert.KernelIdeal.sig) → Buf (Elt Ideal) ℓ)
    (hpre : Cert.Pre_KernelIdeal m) (c : Dev Cert.KernelIdeal.nD) :
    ∀ i, ∃ r : ℝ,
      m ((c.tc : Thread Cert.KernelIdeal.nD Cert.KernelIdeal.τ).loc Cert.KernelIdeal.main_arg1) i = (r : EReal) :=
  arg1_real _ _ _ _ (hpre c)

end Cert.NoiseMask.Finite

end
-- ==== Proof.lean ====
/-
  A per-row adaptive noise mask, kernel against reference, on the extended reals.

  Inputs: `x`, `rand_u`, `noise_std` of shape [4096, 4096] and the logits `model_output` of shape [4096, 1000].
  For a row `r` of the logits let `M = max_k z_k`, `S = Σ_k exp (z_k − M)`; the row's confidence is its largest softmax
  probability and its noise scale is `min (0.1 · (1 + 1 · confidence)) 1`.  The result at `(r, q)` is
  `x(r,q) + (if rand_u(r,q) < 0.3 then noise_std(r,q) · scale_r else 0)`.

  The kernel walks an 8 × 4 grid of 512 × 1024 blocks.  At the first point of each row block it computes the 512 scales from
  the logits' row block as `1 / S` and keeps them in a scratch array; the other three points of the row block read them back.
  The reference computes the softmax `e_k / S` and takes its row maximum.  For real logits the two agree: `M` is attained, so
  some `e_k` is one and all are at most one, and `S` is a real number, at least one, hence `max_k (e_k / S) = 1 / S`.  The
  precondition (every element's absolute value below +∞) makes the logits real.  All float words are the same on both sides.

  Modules: `Spec` (the one function both sides compute), `Pieces` and `Payload` (what one run of the kernel body stores, and
  those values read at an element), `Blocks` (the scratch after every point; the 32 blocks fill the array), `ConfLaw` (the
  law above), `RefSpec` (the reference, stage by stage), `Finite` (real logits from the precondition).
-/
import proofs.«127631_j20770461843629_2_alg».proof.Defs
import proofs.«127631_j20770461843629_2_alg».proof.Proof.Gen.Kernel
import proofs.«127631_j20770461843629_2_alg».proof.Proof.Gen.Kernel.Skeleton
import proofs.«127631_j20770461843629_2_alg».proof.Proof.Gen.Kernel.Launch
import proofs.«127631_j20770461843629_2_alg».proof.Proof.Gen.Kernel.Points
import proofs.«127631_j20770461843629_2_alg».proof.Proof.Gen.Kernel.Frame
import proofs.«127631_j20770461843629_2_alg».proof.Proof.Gen.KernelIdeal
import proofs.«127631_j20770461843629_2_alg».proof.Proof.Gen.KernelIdeal.Skeleton
import proofs.«127631_j20770461843629_2_alg».proof.Proof.Gen.KernelIdeal.Launch
import proofs.«127631_j20770461843629_2_alg».proof.Proof.Gen.KernelIdeal.Points
import proofs.«127631_j20770461843629_2_alg».proof.Proof.Gen.KernelIdeal.Frame
import proofs.«127631_j20770461843629_2_alg».proof.Proof.Gen.ReferenceIdeal
import proofs.«127631_j20770461843629_2_alg».proof.Proof.Gen.Pre_finite_inputs
import proofs.«127631_j20770461843629_2_alg».proof.Proof.Gen.KernelIdeal.Value
import proofs.«127631_j20770461843629_2_alg».proof.Proof.Gen.ReferenceIdeal.Run
import proofs.«127631_j20770461843629_2_alg».proof.Proof.Gen.ReferenceIdeal.Read
import proofs.«127631_j20770461843629_2_alg».proof.Proof.Spec
import proofs.«127631_j20770461843629_2_alg».proof.Proof.Blocks
import proofs.«127631_j20770461843629_2_alg».proof.Proof.RefSpec
import proofs.«127631_j20770461843629_2_alg».proof.Proof.Finite
import Idealize.ShloMosaic.Adequacy
import Idealize.ShloMosaic.Init

noncomputable section

namespace Cert.Proof

open Idealize.ShloMosaic Idealize.SL.Sem

/-- Each program runs and leaves its arguments as it found them. -/
theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- No operation was rewritten for the ideal reading: there is nothing to preserve. -/
theorem preserves : Cert.preserves_Kernel_KernelIdeal := trivial

/-- At the extended reals both programs end at the specification `G` of the argument arrays: the kernel with no
    hypothesis; the reference where every logit is a real number, which the precondition gives (each element's
    absolute value is below +∞), so that the largest softmax probability of a row is one over the row's sum. -/
theorem algebraic : Cert.algebraic_KernelIdeal_ReferenceIdeal := by
  intro m ρ m' ρ' hpre hagree
  refine ⟨fun c => Cert.NoiseMask.G
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)),
    Cert.KernelIdeal.Blocks.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3⟩ := hagree c
  rw [Cert.ReferenceIdeal.Read.val_main_v28_eq, h0, h1, h2, h3]
  exact Cert.NoiseMask.Ref.ref_eq_G _ _ _ _ (Cert.NoiseMask.Finite.logits_real m hpre c)

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
